-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x256 : Shape := ⟨3, ![32, 1024, 256]⟩
abbrev S_ : Shape := ⟨0, ![]⟩

class Facts : Prop where
  bcast_S_S32x1024x256 : S_.BroadcastsInDim S32x1024x256 (![] : Fin 0 → Fin S32x1024x256.rank)
  reducesTo_S32x1024x256_S_d0_1_2 : S32x1024x256.ReducesTo [0, 1, 2] S_
  h_S_ : 0 < S_.numel

variable [Facts]

def fn {F : FTy → Type} [FloatOps F] (main_arg0 : FVec F S32x1024x256 .f32) : IVec S_ 1 :=
  let main_v0 : FVec F S32x1024x256 .f32 := Host.absf main_arg0
  let main_cst : FVec F S_ .f32 := constant S_ .f32 0x7F800000#32
  let main_v1 : FVec F S32x1024x256 .f32 := broadcastInDim S32x1024x256 ![] bcast_S_S32x1024x256 main_cst
  let main_v2 : IVec S32x1024x256 1 := cmpf .olt main_v0 main_v1
  let main_c : IVec S_ 1 := constantI S_ 1 1#1
  let main_v3 : IVec S_ 1 := (fun x v => Host.reduce IntOp.andi x v reducesTo_S32x1024x256_S_d0_1_2 h_S_) main_v2 main_c
  main_v3
-- ==== Kernel.lean ====
abbrev S32x1024x256 : Shape := ⟨3, ![32, 1024, 256]⟩
abbrev S32x1024x1024 : Shape := ⟨3, ![32, 1024, 1024]⟩
abbrev S1x1024x256 : Shape := ⟨3, ![1, 1024, 256]⟩
abbrev S1x1024x1024 : Shape := ⟨3, ![1, 1024, 1024]⟩
abbrev S1024x256 : Shape := ⟨2, ![1024, 256]⟩
abbrev S256x1024 : Shape := ⟨2, ![256, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 6
  | .smem => 0
  | _ => 0

abbrev bufTy : (tb : Table) → Fin (tcTables nBuf tb) → BufTy
  | .hbm, ⟨0, _⟩ => ⟨S32x1024x256, .f32⟩
  | .hbm, ⟨1, _⟩ => ⟨S32x1024x256, .f32⟩
  | .hbm, ⟨2, _⟩ => ⟨S32x1024x1024, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x1024, .f32⟩
  | .local _ .vmem, ⟨5, _⟩ => ⟨S1x1024x1024, .f32⟩
  | _, _ => ⟨S32x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  transposes_S1024x256_p1_0_S256x1024 : S1024x256.Transposes [1, 0] S256x1024
  reduces_S1024x1024_S1024 : S1024x1024.Reduces [1] S1024
  shapeCasts_S1024_S1024x1 : S1024.ShapeCasts S1024x1
  broadcasts_S1024x1_S1024x1024 : S1024x1.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  shapeCasts_S1024x256_S1x1024x256 : S1024x256.ShapeCasts S1x1024x256
  dot_S1024x256_S256x1024_S1024x1024_1_0_0_1_n_n_wf : DotDims.WF S1024x256 S256x1024 S1024x1024 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S32x1024x256.size a
  hwx0_0 : ∀ i : grid0.Coords, EltTy.bits .f32 = 32 ∨ (Rect.block (s := S32x1024x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S32x1024x256.size a
  hwx0_1 : ∀ i : grid0.Coords, EltTy.bits .f32 = 32 ∨ (Rect.block (s := S32x1024x256) S1x1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S32x1024x1024.size a
  hwx0_2 : ∀ i : grid0.Coords, EltTy.bits .f32 = 32 ∨ (Rect.block (s := S32x1024x1024) S1x1024x1024.size (cc0_transform_2 i) (hinb0_2 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1024x256.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1024x256 : Shape := ⟨3, ![32, 1024, 256]⟩
abbrev S32x1024x1024 : Shape := ⟨3, ![32, 1024, 1024]⟩
abbrev S_ : Shape := ⟨0, ![]⟩
abbrev S32x1024 : Shape := ⟨2, ![32, 1024]⟩
abbrev S32x1024x1 : Shape := ⟨3, ![32, 1024, 1]⟩

abbrev nBuf : Space → Nat
  | .hbm => 32
  | .vmem => 0
  | .smem => 0
  | _ => 0

abbrev bufTy : (tb : Table) → Fin (tcTables nBuf tb) → BufTy
  | .hbm, ⟨0, _⟩ => ⟨S32x1024x256, .f32⟩
  | .hbm, ⟨1, _⟩ => ⟨S32x1024x1024, .f32⟩
  | .hbm, ⟨2, _⟩ => ⟨S_, .f32⟩
  | .hbm, ⟨3, _⟩ => ⟨S32x1024x1024, .f32⟩
  | .hbm, ⟨4, _⟩ => ⟨S32x1024x1024, .i1⟩
  | .hbm, ⟨5, _⟩ => ⟨S_, .f32⟩
  | .hbm, ⟨6, _⟩ => ⟨S32x1024x1024, .f32⟩
  | .hbm, ⟨7, _⟩ => ⟨S32x1024x1024, .f32⟩
  | .hbm, ⟨8, _⟩ => ⟨S_, .f32⟩
  | .hbm, ⟨9, _⟩ => ⟨S_, .f32⟩
  | .hbm, ⟨10, _⟩ => ⟨S32x1024x1024, .f32⟩
  | .hbm, ⟨11, _⟩ => ⟨S32x1024x1024, .f32⟩
  | .hbm, ⟨12, _⟩ => ⟨S_, .f32⟩
  | .hbm, ⟨13, _⟩ => ⟨S32x1024, .f32⟩
  | .hbm, ⟨14, _⟩ => ⟨S_, .f32⟩
  | .hbm, ⟨15, _⟩ => ⟨S32x1024, .f32⟩
  | .hbm, ⟨16, _⟩ => ⟨S32x1024, .f32⟩
  | .hbm, ⟨17, _⟩ => ⟨S32x1024x1, .f32⟩
  | .hbm, ⟨18, _⟩ => ⟨S32x1024x1024, .f32⟩
  | .hbm, ⟨19, _⟩ => ⟨S32x1024x1024, .f32⟩
  | .hbm, ⟨20, _⟩ => ⟨S32x1024x1024, .f32⟩
  | .hbm, ⟨21, _⟩ => ⟨S_, .f32⟩
  | .hbm, ⟨22, _⟩ => ⟨S32x1024, .f32⟩
  | .hbm, ⟨23, _⟩ => ⟨S32x1024x1, .f32⟩
  | .hbm, ⟨24, _⟩ => ⟨S32x1024x1024, .f32⟩
  | .hbm, ⟨25, _⟩ => ⟨S32x1024x1024, .f32⟩
  | .hbm, ⟨26, _⟩ => ⟨S32x1024x1024, .i1⟩
  | .hbm, ⟨27, _⟩ => ⟨S_, .f32⟩
  | .hbm, ⟨28, _⟩ => ⟨S_, .f32⟩
  | .hbm, ⟨29, _⟩ => ⟨S32x1024x1024, .f32⟩
  | .hbm, ⟨30, _⟩ => ⟨S32x1024x1024, .f32⟩
  | .hbm, ⟨31, _⟩ => ⟨S32x1024x256, .f32⟩
  | _, _ => ⟨S32x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_call0_v0 : Ref sig .tc := ⟨.hbm, 9, rfl⟩
abbrev main_call0_v1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_call1_v0 : Ref sig .tc := ⟨.hbm, 28, rfl⟩
abbrev main_call1_v1 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]

class Facts₀ : Prop where
  bcast_S_S32x1024x1024 : S_.BroadcastsInDim S32x1024x1024 (![] : Fin 0 → Fin S32x1024x1024.rank)
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  dot_S32x1024x256_S32x1024x256_S32x1024x1024_2_2_1_1_0_0_wf : DotDims.WF S32x1024x256 S32x1024x256 S32x1024x1024 [2] [2] [1] [1] [0] [0]
  dot_S32x1024x1024_S32x1024x256_S32x1024x256_2_1_1_2_0_0_wf : DotDims.WF S32x1024x1024 S32x1024x256 S32x1024x256 [2] [1] [1] [2] [0] [0]

variable [Facts₀]

def dot_S32x1024x256_S32x1024x256_S32x1024x1024_2_2_1_1_0_0 : DotDims S32x1024x256 S32x1024x256 S32x1024x1024 where
  lhsContracting := [2]
  rhsContracting := [2]
  lhsNonContracting := [1]
  rhsNonContracting := [1]
  lhsBatch := [0]
  rhsBatch := [0]
  wf := dot_S32x1024x256_S32x1024x256_S32x1024x1024_2_2_1_1_0_0_wf
def dot_S32x1024x1024_S32x1024x256_S32x1024x256_2_1_1_2_0_0 : DotDims S32x1024x1024 S32x1024x256 S32x1024x256 where
  lhsContracting := [2]
  rhsContracting := [1]
  lhsNonContracting := [1]
  rhsNonContracting := [2]
  lhsBatch := [0]
  rhsBatch := [0]
  wf := dot_S32x1024x1024_S32x1024x256_S32x1024x256_2_1_1_2_0_0_wf

class Facts : Prop extends Facts₀ where

variable [Facts]
-- ==== Proof.Softmax.lean ====
/-
  Masked softmax self-attention of ONE batch element, on the extended reals.

  The element is a matrix `x` of 1024 rows of 256 entries. Its score matrix is `x · xᵀ`: entry (l, m) is the inner product of
  rows l and m. A score that is exactly zero is masked to -∞, every other score is divided by the temperature 16. Row l of
  the attention matrix is the softmax of row l of these logits: each logit minus the row's maximum, exponentiated, divided
  by the row's sum of those exponentials; an entry that is not equal to itself is replaced by zero (on the extended reals
  no entry is, so this last step changes nothing, and it is kept because both programs spell it). The output is the
  attention matrix times `x`: entry (l, d) is the sum over m of attention (l, m) · x (m, d).

  The three constants are kept as the bit patterns both programs print (0, 16, -∞ in binary32).
-/
import Idealize.ShloMosaic.PureOps.Ideal
import Idealize.ShloMosaic.PureOps.Vector

open scoped BigOperators

noncomputable section

namespace Cert.Attn

open Idealize.ShloMosaic

/-- One batch element: 1024 rows of 256 extended reals. -/
abbrev Rows : Type := Fin 1024 → Fin 256 → EReal

variable (x : Rows)

/-- The inner product of rows l and m. -/
def score (l m : Fin 1024) : EReal := ∑ d : Fin 256, x l d * x m d

/-- The logit at (l, m): -∞ where the score is exactly zero, else the score over the temperature 16. -/
def logit (l m : Fin 1024) : EReal :=
  Scalar.select (Ideal.cmp .oeq (score x l m) (Ideal.ofBits .f32 0x00000000#32)) (Ideal.ofBits .f32 0xFF800000#32)
    (Ideal.div (score x l m) (Ideal.ofBits .f32 0x41800000#32))

/-- The maximum of row l of the logits, taken from -∞. -/
def rowMax (l : Fin 1024) : EReal :=
  (Finset.univ : Finset (Fin 1024)).fold max (Ideal.ofBits .f32 0xFF800000#32) fun m => logit x l m

/-- The exponential of the logit less its row's maximum. -/
def weight (l m : Fin 1024) : EReal := Ideal.exp (logit x l m - rowMax x l)

/-- The sum of row l of the weights. -/
def rowSum (l : Fin 1024) : EReal := ∑ m : Fin 1024, weight x l m

/-- The weight over its row's sum. -/
def quot (l m : Fin 1024) : EReal := Ideal.div (weight x l m) (rowSum x l)

/-- The attention matrix: the quotient, zero where the quotient differs from itself. -/
def attn (l m : Fin 1024) : EReal :=
  Scalar.select (Ideal.cmp .one (quot x l m) (quot x l m)) (Ideal.ofBits .f32 0x00000000#32) (quot x l m)

/-- The output: the attention matrix times the rows. -/
def out (l : Fin 1024) (d : Fin 256) : EReal := ∑ m : Fin 1024, attn x l m * x m d

end Cert.Attn

end
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.KernelBlock.lean ====
/-
  What the kernel body computes from ONE block of the input, read entry by entry.

  The body loads a block `P` of shape [1, 1024, 256] — one batch element — and forms, in order: the block's rows (the block
  with its unit axis dropped; rounding the rows to a narrower float format is the identity on the extended reals); the score
  matrix, the rows times their own transpose on the matrix unit, into a zero accumulator; the logits (a zero score masked to
  -∞, else the score over 16); each row's maximum, laid as a column against the row; the weights (the exponential of the
  logit less the row maximum); each row's sum of weights, laid the same way; the quotients; the attention matrix (a quotient
  not equal to itself replaced by zero); and the output, the attention matrix times the rows on the matrix unit.

  Each piece is named here and read at coordinates as the specification's term of the block's rows (Softmax.lean): a
  matrix product at (p, q) is the sum over j of lhs (p, j) · rhs (j, q); a reduction along a row, cast to a column and
  broadcast back, gives at (l, m) the fold (a maximum) or the sum over the entries of row l.
-/
import proofs.«104763_j26010321945311_1_alg».proof.Proof.Gen.KernelIdeal.Skeleton
import proofs.«104763_j26010321945311_1_alg».proof.Proof.Softmax
import proofs.«104763_j26010321945311_1_alg».proof.Proof.LibColumns
import proofs.«104763_j26010321945311_1_alg».proof.Proof.LibMatmul
import Idealize.ShloMosaic.Lib.ValueIdx
import Idealize.ShloMosaic.Lib.Pipeline.Value
import Idealize.ShloMosaic.PureOps.Ideal.Laws

open scoped BigOperators

noncomputable section

namespace Cert.KernelIdeal.Hand

open Cert.KernelIdeal Cert.KernelIdeal.Gen Idealize.ShloMosaic Idealize.ShloMosaic.ValueIdx Cert.Attn

variable (P : Vec Ideal S1x1024x256 .f32)

/-- The block's rows: row l, entry d is the block at (0, l, d). -/
def rows : Rows := fun l d => P (ix3 (0 : Fin 1) l d)

/-- The rows as the body holds them, at (l, d). -/
theorem pay1_apply (l : Fin 1024) (d : Fin 256) : k0_pay1 (F := Ideal) P (ix2 l d) = rows P l d := by
  unfold k0_pay1 rows
  show shapeCast S1024x256 P shapeCasts_S1x1024x256_S1024x256 (ix2 l d) = _
  exact shapeCast_apply P _ (ix2 l d) (ix3 (0 : Fin 1) l d) (by
    rw [Shape.rowMajor_val_three, Shape.rowMajor_val_two]
    show ((0 : ℕ) * 1024 + l.val) * 256 + d.val = l.val * 256 + d.val
    omega)

/-- The transposed rows, at (d, m): row m, entry d. -/
theorem transposed_apply (d : Fin 256) (m : Fin 1024) :
    transpose S256x1024 [1, 0] (k0_pay1 (F := Ideal) P) transposes_S1024x256_p1_0_S256x1024 (ix2 d m) = rows P m d := by
  refine (transpose_apply [1, 0] (k0_pay1 (F := Ideal) P) transposes_S1024x256_p1_0_S256x1024 (ix2 d m) (ix2 m d) fun b => ?_).trans
    (pay1_apply P m d)
  match b with
  | ⟨0, _⟩ => rfl
  | ⟨1, _⟩ => rfl

/-- The score matrix: the rows times their transpose, into a zero accumulator. -/
def kScore : FVec Ideal S1024x1024 .f32 :=
  matmul dot_S1024x256_S256x1024_S1024x1024_1_0_0_1_n_n none (k0_pay1 (F := Ideal) P)
    (transpose S256x1024 [1, 0] (k0_pay1 (F := Ideal) P) transposes_S1024x256_p1_0_S256x1024)
    (constant (F := Ideal) S1024x1024 .f32 0x00000000#32)

theorem kScore_apply (l m : Fin 1024) : kScore P (ix2 l m) = score (rows P) l m := by
  unfold kScore score
  refine (matmul_zero_ix2 dot_S1024x256_S256x1024_S1024x1024_1_0_0_1_n_n rfl rfl rfl rfl rfl rfl none _ _ l m).trans ?_
  exact Finset.sum_congr rfl fun j _ => by rw [pay1_apply, transposed_apply]

/-- The logits: a zero score masked to -∞, else the score over 16. -/
def kLogit : FVec Ideal S1024x1024 .f32 :=
  select (cmpf .oeq (kScore P) (broadcast S1024x1024 (Scalar.ofBits (F := Ideal) .f32 0x00000000#32)))
    (broadcast S1024x1024 (Scalar.ofBits (F := Ideal) .f32 0xFF800000#32))
    (divf (kScore P) (broadcast S1024x1024 (Scalar.ofBits (F := Ideal) .f32 0x41800000#32)))

theorem kLogit_apply (l m : Fin 1024) : kLogit P (ix2 l m) = logit (rows P) l m := by
  show Scalar.select (Ideal.cmp .oeq (kScore P (ix2 l m)) (Ideal.ofBits .f32 0x00000000#32)) (Ideal.ofBits .f32 0xFF800000#32)
    (Ideal.div (kScore P (ix2 l m)) (Ideal.ofBits .f32 0x41800000#32)) = _
  rw [kScore_apply]
  rfl

/-- Each row's maximum of the logits, from -∞, as a column laid against the row. -/
def kMaxCol : FVec Ideal S1024x1024 .f32 :=
  broadcastTo S1024x1024
    (shapeCast S1024x1 (multiReduction .maximumf [1] S1024 (kLogit P) 0xFF800000#32 reduces_S1024x1024_S1024 (.inl rfl) rfl)
      shapeCasts_S1024_S1024x1)
    broadcasts_S1024x1_S1024x1024

/-- Row l of a [1024, 1024] array, entry k: the reduced index l with k put back on the reduced axis. -/
theorem lift_row (h : S1024x1024.Reduces [1] S1024) (l : Fin 1024) (k : Fin (S1024x1024.size 1)) :
    h.lift (ix1 l) k = ix2 l (⟨k.val, k.isLt⟩ : Fin 1024) := by
  funext c; apply Fin.ext
  match c with
  | ⟨0, _⟩ => rfl
  | ⟨1, _⟩ => rfl

theorem kMaxCol_apply (l m : Fin 1024) : kMaxCol P (ix2 l m) = rowMax (rows P) l := by
  unfold kMaxCol rowMax
  refine (broadcastTo_column_apply _ shapeCasts_S1024_S1024x1 broadcasts_S1024x1_S1024x1024 l m).trans ?_
  refine (Ideal.multiReduction_maximumf_single (kLogit P) 0xFF800000#32 reduces_S1024x1024_S1024 (.inl rfl) rfl (ix1 l)).trans ?_
  have hf : (kLogit P ∘ reduces_S1024x1024_S1024.lift (ix1 l)) = fun k : Fin 1024 => logit (rows P) l k :=
    funext fun k => (congrArg (kLogit P) (lift_row reduces_S1024x1024_S1024 l k)).trans (kLogit_apply P l _)
  exact congrArg (fun f => Finset.fold max (Ideal.ofBits .f32 0xFF800000#32) f (Finset.univ : Finset (Fin 1024))) hf

/-- The weights: the exponential of the logit less its row's maximum. -/
def kWeight : FVec Ideal S1024x1024 .f32 := exp (subf (kLogit P) (kMaxCol P))

theorem kWeight_apply (l m : Fin 1024) : kWeight P (ix2 l m) = weight (rows P) l m := by
  show Ideal.exp (kLogit P (ix2 l m) - kMaxCol P (ix2 l m)) = _
  rw [kLogit_apply, kMaxCol_apply]
  rfl

/-- Each row's sum of the weights, as a column laid against the row. -/
def kSumCol : FVec Ideal S1024x1024 .f32 :=
  broadcastTo S1024x1024
    (shapeCast S1024x1 (multiReduction .add [1] S1024 (kWeight P) 0x00000000#32 reduces_S1024x1024_S1024 (.inl rfl) rfl)
      shapeCasts_S1024_S1024x1)
    broadcasts_S1024x1_S1024x1024

theorem kSumCol_apply (l m : Fin 1024) : kSumCol P (ix2 l m) = rowSum (rows P) l := by
  unfold kSumCol rowSum
  refine (broadcastTo_column_apply _ shapeCasts_S1024_S1024x1 broadcasts_S1024x1_S1024x1024 l m).trans ?_
  refine (Ideal.multiReduction_add_single (kWeight P) 0x00000000#32 reduces_S1024x1024_S1024 (.inl rfl) rfl (ix1 l)).trans ?_
  exact Finset.sum_congr rfl fun k _ =>
    (congrArg (kWeight P) (lift_row reduces_S1024x1024_S1024 l k)).trans (kWeight_apply P l _)

/-- The quotients: each weight over its row's sum. -/
def kQuot : FVec Ideal S1024x1024 .f32 := divf (kWeight P) (kSumCol P)

theorem kQuot_apply (l m : Fin 1024) : kQuot P (ix2 l m) = quot (rows P) l m := by
  show Ideal.div (kWeight P (ix2 l m)) (kSumCol P (ix2 l m)) = _
  rw [kWeight_apply, kSumCol_apply]
  rfl

/-- The attention block the body stores is these pieces put together. -/
theorem pay2_eq : k0_pay2 (F := Ideal) P
    = select (cmpf .one (kQuot P) (kQuot P)) (broadcast S1024x1024 (Scalar.ofBits (F := Ideal) .f32 0x00000000#32)) (kQuot P) := rfl

/-- The attention block at (l, m) is the specification's attention of the block's rows. -/
theorem pay2_apply (l m : Fin 1024) : k0_pay2 (F := Ideal) P (ix2 l m) = attn (rows P) l m := by
  rw [pay2_eq]
  show Scalar.select (Ideal.cmp .one (kQuot P (ix2 l m)) (kQuot P (ix2 l m))) (Ideal.ofBits .f32 0x00000000#32) (kQuot P (ix2 l m)) = _
  rw [kQuot_apply]
  rfl

/-- The attention block as stored, with a unit axis put in front, at (0, l, m). -/
theorem pay3_apply (u : Fin 1) (l m : Fin 1024) : k0_pay3 (F := Ideal) P (ix3 u l m) = attn (rows P) l m := by
  unfold k0_pay3
  refine (shapeCast_apply _ shapeCasts_S1024x1024_S1x1024x1024 (ix3 u l m) (ix2 l m) (by
    have hu : u.val = 0 := by omega
    rw [Shape.rowMajor_val_three, Shape.rowMajor_val_two]
    show l.val * 1024 + m.val = (u.val * 1024 + l.val) * 1024 + m.val
    rw [hu]; omega)).trans ?_
  exact pay2_apply P l m

/-- The output block the body stores: the attention block times the rows, with a unit axis put in front. -/
theorem pay4_eq : k0_pay4 (F := Ideal) P
    = shapeCast S1x1024x256
        (matmul dot_S1024x1024_S1024x256_S1024x256_1_0_0_1_n_n none (truncf .bf16 (k0_pay2 (F := Ideal) P) bitsLt_bf16_f32)
          (k0_pay1 (F := Ideal) P) (constant (F := Ideal) S1024x256 .f32 0x00000000#32))
        shapeCasts_S1024x256_S1x1024x256 := rfl

/-- The output block at (0, l, d) is the specification's output of the block's rows. -/
theorem pay4_apply (u : Fin 1) (l : Fin 1024) (d : Fin 256) : k0_pay4 (F := Ideal) P (ix3 u l d) = out (rows P) l d := by
  rw [pay4_eq]
  refine (shapeCast_apply _ shapeCasts_S1024x256_S1x1024x256 (ix3 u l d) (ix2 l d) (by
    have hu : u.val = 0 := by omega
    rw [Shape.rowMajor_val_three, Shape.rowMajor_val_two]
    show l.val * 256 + d.val = (u.val * 1024 + l.val) * 256 + d.val
    rw [hu]; omega)).trans ?_
  refine (matmul_zero_ix2 dot_S1024x1024_S1024x256_S1024x256_1_0_0_1_n_n rfl rfl rfl rfl rfl rfl none _ _ l d).trans ?_
  unfold out
  exact Finset.sum_congr rfl fun j _ => by
    show k0_pay2 (F := Ideal) P (ix2 l j) * k0_pay1 (F := Ideal) P (ix2 j d) = _
    rw [pay2_apply, pay1_apply]

end Cert.KernelIdeal.Hand

end
-- ==== Proof.Arrays.lean ====
/-
  The two result arrays as functions of the argument array `q` of shape [32, 1024, 256]: batch element b of `q` is the
  matrix of rows `q (b, l, ·)`; the attention array at (b, l, m) is that element's attention matrix at (l, m), and the
  output array at (b, l, d) is that element's output at (l, d). The batch elements do not interact.
-/
import proofs.«104763_j26010321945311_1_alg».proof.Proof.Softmax
import Idealize.ShloMosaic.Lib.ValueIdx

noncomputable section

namespace Cert.Attn

open Idealize.ShloMosaic Idealize.ShloMosaic.ValueIdx

/-- Indices of the argument and of the output array, [32, 1024, 256]; of the attention array, [32, 1024, 1024]. -/
abbrev QIdx : Type := (⟨3, ![32, 1024, 256]⟩ : Shape).Idx
abbrev AIdx : Type := (⟨3, ![32, 1024, 1024]⟩ : Shape).Idx

/-- Batch element b of the argument, as rows. -/
def batch (q : QIdx → EReal) (b : Fin 32) : Rows := fun l d => q (ix3 b l d)

/-- The attention array. -/
def attnArr (q : QIdx → EReal) : AIdx → EReal := fun i =>
  attn (batch q ⟨(i 0).val, (i 0).isLt⟩) ⟨(i 1).val, (i 1).isLt⟩ ⟨(i 2).val, (i 2).isLt⟩

/-- The output array. -/
def outArr (q : QIdx → EReal) : QIdx → EReal := fun i =>
  out (batch q ⟨(i 0).val, (i 0).isLt⟩) ⟨(i 1).val, (i 1).isLt⟩ ⟨(i 2).val, (i 2).isLt⟩

theorem attnArr_ix3 (q : QIdx → EReal) (b : Fin 32) (l m : Fin 1024) : attnArr q (ix3 b l m) = attn (batch q b) l m := rfl

theorem outArr_ix3 (q : QIdx → EReal) (b : Fin 32) (l : Fin 1024) (d : Fin 256) : outArr q (ix3 b l d) = out (batch q b) l d := rfl

end Cert.Attn

end
-- ==== Proof.KernelArrays.lean ====
/-
  From blocks to arrays. The grid has 32 points, one per batch element: at point t every window's block is block
  (t, 0, 0) of its array — the input's block is batch element t of the argument, and the two outputs' blocks are batch
  element t of the output array and of the attention array. So what point t writes back is block t of the specification's
  arrays of the argument (Arrays.lean), the blocks of the 32 points cover each result array (index (b, ·, ·) lies in point
  b's block), and after the run each result array IS its specification array, the argument unchanged.
-/
import proofs.«104763_j26010321945311_1_alg».proof.Proof.Gen.KernelIdeal.Value
import proofs.«104763_j26010321945311_1_alg».proof.Proof.KernelBlock
import proofs.«104763_j26010321945311_1_alg».proof.Proof.Arrays
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The argument array on core c. -/
abbrev argQ (c : Dev nD) : QIdx → EReal := (m ((c : Thread nD τ).loc main_arg0) : S32x1024x256.Idx → Elt Ideal .f32)

/-- The printed index maps, decided over the grid: at point t each window's block index is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

theorem lt_N (t : Fin cfg0.N) : t.val < 32 := Nat.lt_of_lt_of_eq t.isLt (show cfg0.N = 32 from N_0)

/-- The input block at point t, at (u, l, d), is the argument at (t, l, d). -/
theorem iblk_apply (c : Dev nD) (t : Fin cfg0.N) (y : S1x1024x256.Idx) (k : S32x1024x256.Idx)
    (hk0 : (k 0).val = t.val) (hk1 : (k 1).val = (y 1).val) (hk2 : (k 2).val = (y 2).val) :
    (iblk m c 0 t : Vec Ideal S1x1024x256 .f32) y = argQ m c k := by
  obtain ⟨e0, e1, e2, -⟩ := idx_facts t
  have hy0 : (y 0).val < 1 := (y 0).isLt
  unfold iblk
  rw [View.read_apply]
  show V m c main_arg0 _ = m (c.tc.loc main_arg0) _
  unfold V
  congr 1
  funext a
  apply Fin.ext
  match a with
  | ⟨0, _⟩ => show win0_0.index t (0 : Fin 3) * 1 + 1 * (y 0).val = (k 0).val; rw [e0, hk0]; omega
  | ⟨1, _⟩ => show win0_0.index t (1 : Fin 3) * 1024 + 1 * (y 1).val = (k 1).val; rw [e1, hk1]; omega
  | ⟨2, _⟩ => show win0_0.index t (2 : Fin 3) * 256 + 1 * (y 2).val = (k 2).val; rw [e2, hk2]; omega

/-- The rows of the input block at point t are batch element t of the argument. -/
theorem rows_iblk (c : Dev nD) (t : Fin cfg0.N) (b : Fin 32) (hb : b.val = t.val) :
    rows (iblk m c 0 t) = batch (argQ m c) b := by
  funext l d
  unfold rows batch
  exact iblk_apply m c t (ix3 (0 : Fin 1) l d) (ix3 b l d) hb rfl rfl

/-! ## The attention array (window 2) -/

/-- What point t writes back is block t of the attention array of the argument. -/
theorem flushed2_eq (c : Dev nD) (t : Fin cfg0.N) :
    (dats m 0 c).flushed 2 t = ((cfg0.win 2).blk t).view.read (Elt Ideal) (attnArr (argQ m c)) := by
  obtain ⟨-, -, -, -, -, -, e0, e1, e2⟩ := idx_facts t
  have ht : t.val < 32 := lt_N t
  rw [Value.flushed2]
  unfold out0_2
  rw [View.canon_unit_zero hz]
  simp only [View.ld_unit_zero (S := S1x1024x256) hz]
  refine funext fun (y : S1x1024x1024.Idx) => ?_
  obtain ⟨u, l, k, rfl⟩ : ∃ (u : Fin 1) (l k : Fin 1024), y = ix3 u l k := ⟨y 0, y 1, y 2, eq_ix3 y⟩
  show k0_pay3 (F := Ideal) (iblk m c 0 t) (ix3 u l k) = attnArr (argQ m c) (((cfg0.win 2).blk t).view.emb (ix3 u l k))
  have hemb : ((cfg0.win 2).blk t).view.emb (ix3 u l k) = (ix3 (⟨t.val, ht⟩ : Fin 32) l k : S32x1024x1024.Idx) := by
    funext a; apply Fin.ext
    have hu : u.val = 0 := by omega
    match a with
    | ⟨0, _⟩ => show win0_2.index t (0 : Fin 3) * 1 + 1 * u.val = t.val; rw [e0, hu]; omega
    | ⟨1, _⟩ => show win0_2.index t (1 : Fin 3) * 1024 + 1 * l.val = l.val; rw [e1]; omega
    | ⟨2, _⟩ => show win0_2.index t (2 : Fin 3) * 1024 + 1 * k.val = k.val; rw [e2]; omega
  rw [hemb, attnArr_ix3]
  refine (pay3_apply (iblk m c 0 t) u l k).trans ?_
  rw [rows_iblk m c t ⟨t.val, ht⟩ rfl]

/-- An index of the attention array is in point t's block iff each coordinate is in the block's range on its axis. -/
theorem mem_blk2 (t : Fin cfg0.N) (i : S32x1024x1024.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v0_1).slice (win0_2.rect t)).set ↔ _
  rw [View.set_slice_whole, Rect.mem_set_unit]
  exact Iff.rfl

/-- Every index (b, l, k) of the attention array is in point b's block. -/
theorem cover2 (i : S32x1024x1024.Idx) : ∃ t : Fin cfg0.N, (cfg0.win 2).flush t = true ∧ i ∈ ((cfg0.win 2).blk t).view.set := by
  have hi0 : (i 0).val < 32 := (i 0).isLt
  have hi1 : (i 1).val < 1024 := (i 1).isLt
  have hi2 : (i 2).val < 1024 := (i 2).isLt
  obtain ⟨t, htv⟩ : ∃ t : Fin cfg0.N, t.val = (i 0).val := ⟨⟨(i 0).val, Nat.lt_of_lt_of_eq hi0 (show cfg0.N = 32 from N_0).symm⟩, rfl⟩
  obtain ⟨-, -, -, -, -, -, e0, e1, e2⟩ := idx_facts t
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; rw [e0, htv]; omega
  | ⟨1, _⟩ => show win0_2.index t (1 : Fin 3) * 1024 ≤ (i 1).val ∧ (i 1).val < win0_2.index t (1 : Fin 3) * 1024 + 1024; rw [e1]; omega
  | ⟨2, _⟩ => show win0_2.index t (2 : Fin 3) * 1024 ≤ (i 2).val ∧ (i 2).val < win0_2.index t (2 : Fin 3) * 1024 + 1024; rw [e2]; omega

/-- After the run the attention array is the attention array of the argument. -/
theorem final2 (c : Dev nD) : (dats m 0 c).arrAt 2 cfg0.N = attnArr (argQ m c) :=
  (dats m 0 c).arrAt_eq_of_cover 2 (attnArr (argQ m c)) (fun t _ => flushed2_eq m c t) cover2

/-! ## The output array (window 1) -/

/-- What point t writes back is block t of the output array of the argument. -/
theorem flushed1_eq (c : Dev nD) (t : Fin cfg0.N) :
    (dats m 0 c).flushed 1 t = ((cfg0.win 1).blk t).view.read (Elt Ideal) (outArr (argQ m c)) := by
  obtain ⟨-, -, -, e0, e1, e2, -⟩ := idx_facts t
  have ht : t.val < 32 := lt_N t
  rw [Value.flushed1]
  unfold out0_1
  rw [View.canon_unit_zero hz]
  simp only [View.ld_unit_zero (S := S1x1024x256) hz]
  refine funext fun (y : S1x1024x256.Idx) => ?_
  obtain ⟨u, l, d, rfl⟩ : ∃ (u : Fin 1) (l : Fin 1024) (d : Fin 256), y = ix3 u l d := ⟨y 0, y 1, y 2, eq_ix3 y⟩
  show k0_pay4 (F := Ideal) (iblk m c 0 t) (ix3 u l d) = outArr (argQ m c) (((cfg0.win 1).blk t).view.emb (ix3 u l d))
  have hemb : ((cfg0.win 1).blk t).view.emb (ix3 u l d) = (ix3 (⟨t.val, ht⟩ : Fin 32) l d : S32x1024x256.Idx) := by
    funext a; apply Fin.ext
    have hu : u.val = 0 := by omega
    match a with
    | ⟨0, _⟩ => show win0_1.index t (0 : Fin 3) * 1 + 1 * u.val = t.val; rw [e0, hu]; omega
    | ⟨1, _⟩ => show win0_1.index t (1 : Fin 3) * 1024 + 1 * l.val = l.val; rw [e1]; omega
    | ⟨2, _⟩ => show win0_1.index t (2 : Fin 3) * 256 + 1 * d.val = d.val; rw [e2]; omega
  rw [hemb, outArr_ix3]
  refine (pay4_apply (iblk m c 0 t) u l d).trans ?_
  rw [rows_iblk m c t ⟨t.val, ht⟩ rfl]

/-- An index of the output array is in point t's block iff each coordinate is in the block's range on its axis. -/
theorem mem_blk1 (t : Fin cfg0.N) (i : S32x1024x256.Idx) :
    i ∈ ((cfg0.win 1).blk t).view.set ↔ ∀ a : Fin 3, win0_1.index t a * S1x1024x256.size a ≤ (i a).val
      ∧ (i a).val < win0_1.index t a * S1x1024x256.size a + S1x1024x256.size a := by
  show i ∈ ((View.whole main_v0_0).slice (win0_1.rect t)).set ↔ _
  rw [View.set_slice_whole, Rect.mem_set_unit]
  exact Iff.rfl

/-- Every index (b, l, d) of the output array is in point b's block. -/
theorem cover1 (i : S32x1024x256.Idx) : ∃ t : Fin cfg0.N, (cfg0.win 1).flush t = true ∧ i ∈ ((cfg0.win 1).blk t).view.set := by
  have hi0 : (i 0).val < 32 := (i 0).isLt
  have hi1 : (i 1).val < 1024 := (i 1).isLt
  have hi2 : (i 2).val < 256 := (i 2).isLt
  obtain ⟨t, htv⟩ : ∃ t : Fin cfg0.N, t.val = (i 0).val := ⟨⟨(i 0).val, Nat.lt_of_lt_of_eq hi0 (show cfg0.N = 32 from N_0).symm⟩, rfl⟩
  obtain ⟨-, -, -, e0, e1, e2, -⟩ := idx_facts t
  refine ⟨t, flush0_1 t, ?_⟩
  rw [mem_blk1]
  intro a
  match a with
  | ⟨0, _⟩ => show win0_1.index t (0 : Fin 3) * 1 ≤ (i 0).val ∧ (i 0).val < win0_1.index t (0 : Fin 3) * 1 + 1; rw [e0, htv]; omega
  | ⟨1, _⟩ => show win0_1.index t (1 : Fin 3) * 1024 ≤ (i 1).val ∧ (i 1).val < win0_1.index t (1 : Fin 3) * 1024 + 1024; rw [e1]; omega
  | ⟨2, _⟩ => show win0_1.index t (2 : Fin 3) * 256 ≤ (i 2).val ∧ (i 2).val < win0_1.index t (2 : Fin 3) * 256 + 256; rw [e2]; omega

/-- After the run the output array is the output array of the argument. -/
theorem final1 (c : Dev nD) : (dats m 0 c).arrAt 1 cfg0.N = outArr (argQ m c) :=
  (dats m 0 c).arrAt_eq_of_cover 1 (outArr (argQ m c)) (fun t _ => flushed1_eq m c t) cover1

/-! ## The run -/

/-- Every weakly fair execution of the kernel's program terminates with the two result arrays at the specification's
    arrays of the argument, the argument unchanged. -/
theorem run : θ_run defs (onTc (τ := τ) (main (F := Ideal))) ⟨m, fun _ => 0, ρ⟩ fun r => ∀ c : Dev nD,
      r.2.mem ((c : Thread nD τ).loc main_v0_0) = outArr (argQ m c)
      ∧ r.2.mem ((c : Thread nD τ).loc main_v0_1) = attnArr (argQ m c)
      ∧ r.2.mem ((c : Thread nD τ).loc main_arg0) = m ((c : Thread nD τ).loc main_arg0) :=
  (θ_run defs _ _).mono (fun r h c => ⟨(h c).1.trans (final1 m c), (h c).2.1.trans (final2 m c), (h c).2.2⟩)
    (Value.run_blocks m ρ)

end Cert.KernelIdeal.Hand

end
-- ==== Proof.ReferenceRows.lean ====
/-
  The reference program read stage by stage at coordinates, batch element by batch element.

  Its two batched products contract within one batch element: the score at (b, l, m) is the inner product of rows l and m
  of element b, and the output at (b, l, d) sums attention (b, l, m) · q (b, m, d) over m. The reductions run along the last
  axis, so at (b, l) they fold or sum row l of element b; the reference takes one more maximum of that row maximum with
  -∞, which returns it, since a fold of maxima that starts from -∞ is at least -∞. Its test "not equal to itself" is
  spelt with the unordered comparison, which on the extended reals is the ordered one. So each stage is the specification's
  term (Softmax.lean) of batch element b, and the two results are the arrays of Arrays.lean.
-/
import proofs.«104763_j26010321945311_1_alg».proof.Proof.Gen.ReferenceIdeal.Read
import proofs.«104763_j26010321945311_1_alg».proof.Proof.Arrays
import Idealize.ShloMosaic.Lib.ValueIdx
import Idealize.ShloMosaic.PureOps.Ideal.Laws
import Idealize.ShloMosaic.PureOps.Reduce

open scoped BigOperators

noncomputable section

namespace Cert.ReferenceIdeal.Hand

open Cert.ReferenceIdeal Cert.ReferenceIdeal.Gen Cert.ReferenceIdeal.Read Idealize.ShloMosaic Idealize.ShloMosaic.ValueIdx Cert.Attn

variable (q : (⟨S32x1024x256, .f32⟩ : BufTy).Contents (Elt Ideal))

/-- The scores. -/
theorem ref_score (b : Fin 32) (l m : Fin 1024) : val_main_v0 (F := Ideal) q (ix3 b l m) = score (batch q b) l m := by
  rw [val_main_v0_apply]
  unfold score batch
  refine Finset.sum_congr rfl fun k _ => ?_
  have el : lidx_main_v0 (ix3 b l m) k = ix3 b l k := funext fun a => by
    match a with
    | ⟨0, _⟩ => rfl
    | ⟨1, _⟩ => rfl
    | ⟨2, _⟩ => rfl
  have er : ridx_main_v0 (ix3 b l m) k = ix3 b m k := funext fun a => by
    match a with
    | ⟨0, _⟩ => rfl
    | ⟨1, _⟩ => rfl
    | ⟨2, _⟩ => rfl
  rw [el, er]

/-- The logits. -/
theorem ref_logit (b : Fin 32) (l m : Fin 1024) : val_main_v5 (F := Ideal) q (ix3 b l m) = logit (batch q b) l m := by
  rw [val_main_v5_apply, val_main_v2_apply, val_main_v4_apply, ref_score, val_main_v1_apply, val_main_cst_apply,
    val_main_call0_v1_apply, val_main_call0_v0_apply, val_main_cst_1_apply, val_main_v3_apply, val_main_cst_0_apply]
  rfl

/-- The reduced index (b, l) with k put back on the last axis. -/
theorem lift_last (h : S32x1024x1024.Reduces [2] S32x1024) (b : Fin 32) (l : Fin 1024) (k : Fin (S32x1024x1024.size 2)) :
    h.lift (ix2 b l) k = ix3 b l (⟨k.val, k.isLt⟩ : Fin 1024) := by
  funext c; apply Fin.ext
  match c with
  | ⟨0, _⟩ => rfl
  | ⟨1, _⟩ => rfl
  | ⟨2, _⟩ => rfl

theorem reduces_last : S32x1024x1024.Reduces [2] S32x1024 := by decide

/-- The row maxima: the host's fold along the last axis, and one more maximum with -∞. -/
theorem ref_rowMax (b : Fin 32) (l : Fin 1024) : val_main_v8 (F := Ideal) q (ix2 b l) = rowMax (batch q b) l := by
  have hfold : val_main_v6 (F := Ideal) q (ix2 b l) = rowMax (batch q b) l := by
    unfold val_main_v6 rowMax
    refine (Host.reduce_eq_fold_single (α := Ideal .f32) (u := S_) (FloatOps.maximumf (F := Ideal) (φ := .f32))
      (val_main_v5 (F := Ideal) q : S32x1024x1024.Idx → Ideal .f32) (val_main_cst_2 (F := Ideal) : S_.Idx → Ideal .f32)
      reducesTo_S32x1024x1024_S32x1024_d2 reduces_last h_S_ (ix2 b l)).trans ?_
    have hf : (val_main_v5 (F := Ideal) q ∘ reduces_last.lift (ix2 b l)) = fun k : Fin 1024 => logit (batch q b) l k :=
      funext fun k => (congrArg (val_main_v5 (F := Ideal) q) (lift_last reduces_last b l k)).trans (ref_logit q b l _)
    exact congrArg (fun f => Finset.fold max (Ideal.ofBits .f32 0xFF800000#32) f (Finset.univ : Finset (Fin 1024))) hf
  rw [val_main_v8_apply, val_main_v7_apply, val_main_cst_3_apply, hfold]
  show max (Ideal.ofBits .f32 0xFF800000#32) (rowMax (batch q b) l) = rowMax (batch q b) l
  refine max_eq_right ?_
  unfold rowMax
  exact (Finset.le_fold_max _).mpr (Or.inl le_rfl)

/-- The weights. -/
theorem ref_weight (b : Fin 32) (l m : Fin 1024) : val_main_v12 (F := Ideal) q (ix3 b l m) = weight (batch q b) l m := by
  have e : idx_main_v9 (idx_main_v10 (ix3 b l m)) = ix2 b l := funext fun a => by
    match a with
    | ⟨0, _⟩ => rfl
    | ⟨1, _⟩ => rfl
  rw [val_main_v12_apply, val_main_v11_apply, ref_logit, val_main_v10_apply, val_main_v9_apply, e, ref_rowMax]
  rfl

/-- The row sums: the host's sum from zero along the last axis. -/
theorem ref_rowSum (b : Fin 32) (l : Fin 1024) : val_main_v13 (F := Ideal) q (ix2 b l) = rowSum (batch q b) l := by
  rw [val_main_v13_apply, val_main_cst_4_apply]
  show Ideal.ofBits .f32 0x00000000#32 + _ = _
  rw [Ideal.ofBits_zero_f32, zero_add]
  unfold rowSum
  refine Finset.sum_congr rfl fun k _ => ?_
  have e : idx_main_v13 (ix2 b l) k = ix3 b l k := funext fun a => by
    match a with
    | ⟨0, _⟩ => rfl
    | ⟨1, _⟩ => rfl
    | ⟨2, _⟩ => rfl
  rw [e, ref_weight]

/-- The quotients. -/
theorem ref_quot (b : Fin 32) (l m : Fin 1024) : val_main_v16 (F := Ideal) q (ix3 b l m) = quot (batch q b) l m := by
  have e : idx_main_v14 (idx_main_v15 (ix3 b l m)) = ix2 b l := funext fun a => by
    match a with
    | ⟨0, _⟩ => rfl
    | ⟨1, _⟩ => rfl
  rw [val_main_v16_apply, ref_weight, val_main_v15_apply, val_main_v14_apply, e, ref_rowSum]
  rfl

/-- The attention array. -/
theorem ref_attn (b : Fin 32) (l m : Fin 1024) : val_main_v18 (F := Ideal) q (ix3 b l m) = attn (batch q b) l m := by
  rw [val_main_v18_apply, val_main_v17_apply, ref_quot, val_main_call1_v1_apply, val_main_call1_v0_apply, val_main_cst_5_apply]
  rfl

/-- The output array. -/
theorem ref_out (b : Fin 32) (l : Fin 1024) (d : Fin 256) : val_main_v19 (F := Ideal) q (ix3 b l d) = out (batch q b) l d := by
  rw [val_main_v19_apply]
  unfold out
  refine Finset.sum_congr rfl fun k _ => ?_
  have el : lidx_main_v19 (ix3 b l d) k = ix3 b l k := funext fun a => by
    match a with
    | ⟨0, _⟩ => rfl
    | ⟨1, _⟩ => rfl
    | ⟨2, _⟩ => rfl
  have er : ridx_main_v19 (ix3 b l d) k = ix3 b k d := funext fun a => by
    match a with
    | ⟨0, _⟩ => rfl
    | ⟨1, _⟩ => rfl
    | ⟨2, _⟩ => rfl
  rw [el, er, ref_attn]
  rfl

/-- The reference's second result is the attention array of its argument. -/
theorem attn_eq : val_main_v18 (F := Ideal) q = attnArr q := funext fun i => by
  rw [eq_ix3 i]
  exact ref_attn q _ _ _

/-- The reference's first result is the output array of its argument. -/
theorem out_eq : val_main_v19 (F := Ideal) q = outArr q := funext fun i => by
  rw [eq_ix3 i]
  exact ref_out q _ _ _

end Cert.ReferenceIdeal.Hand

end
-- ==== Proof.lean ====
/-
  Masked softmax self-attention, a kernel against its array-language reference, on the extended reals.

  For an argument q of shape [32, 1024, 256] both programs return, per batch element b with rows x = q (b, ·, ·): the attention
  matrix softmax (mask (x · xᵀ) / 16) — a score that is exactly zero masked to -∞ before the softmax, an entry that is not
  equal to itself replaced by zero after it — and the output, the attention matrix times x. The kernel runs one grid point per
  batch element: it loads the element's block, forms the two matrix products on the matrix unit (rounding their operands to a
  narrower float format, which is the identity here), takes each row's maximum and sum with lane reductions, and writes
  both result blocks back. The reference uses two batched products, reductions along the last axis, and one more
  maximum with -∞ on the row maxima.

  Read at coordinates both are one function of q (Proof/Softmax.lean, Proof/Arrays.lean): a matrix product is the sum of
  products over the contracted position in either program; a row's maximum is the fold of maxima from -∞ over the row,
  and the extra maximum with -∞ returns it; a row's sum from zero is the sum; every entrywise operation is the same
  operation of the extended reals. No law of arithmetic beyond these is used, so finiteness of the argument is never needed.
  Proof/KernelBlock.lean reads what the kernel body stores from one block, Proof/KernelArrays.lean assembles the 32 blocks
  into the result arrays after the kernel's run, Proof/ReferenceRows.lean reads the reference's stages; here the five claims
  are put together. The idealized kernel is the kernel's own text read on the extended reals (no rewrite was made), so the
  fourth claim is trivial.
-/
import proofs.«104763_j26010321945311_1_alg».proof.Defs
import proofs.«104763_j26010321945311_1_alg».proof.Proof.Gen.Kernel
import proofs.«104763_j26010321945311_1_alg».proof.Proof.Gen.Kernel.Frame
import proofs.«104763_j26010321945311_1_alg».proof.Proof.Gen.KernelIdeal
import proofs.«104763_j26010321945311_1_alg».proof.Proof.Gen.KernelIdeal.Frame
import proofs.«104763_j26010321945311_1_alg».proof.Proof.Gen.KernelIdeal.Value
import proofs.«104763_j26010321945311_1_alg».proof.Proof.Gen.ReferenceIdeal
import proofs.«104763_j26010321945311_1_alg».proof.Proof.Gen.ReferenceIdeal.Run
import proofs.«104763_j26010321945311_1_alg».proof.Proof.Gen.ReferenceIdeal.Read
import proofs.«104763_j26010321945311_1_alg».proof.Proof.Gen.Pre_finite_inputs
import proofs.«104763_j26010321945311_1_alg».proof.Proof.KernelArrays
import proofs.«104763_j26010321945311_1_alg».proof.Proof.ReferenceRows
import Idealize.ShloMosaic.Adequacy
import Idealize.ShloMosaic.Init

noncomputable section

namespace Cert.Proof

open Idealize.ShloMosaic Idealize.SL.Sem

/-- The kernel as printed runs to the end, faults nowhere and leaves its argument unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- No operation was rewritten on the way to the extended reals. -/
theorem preserves : Cert.preserves_Kernel_KernelIdeal := trivial

/-- From memories that agree on the argument q, the kernel's two result arrays and the reference's two results are the
    output array and the attention array of q. -/
theorem algebraic : Cert.algebraic_KernelIdeal_ReferenceIdeal := by
  intro m ρ m' ρ' _ hagree
  refine ⟨fun c => Cert.Attn.outArr (Cert.KernelIdeal.Hand.argQ m c), fun c => Cert.Attn.attnArr (Cert.KernelIdeal.Hand.argQ m c),
    Cert.KernelIdeal.Hand.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v19_eq, Cert.ReferenceIdeal.Hand.out_eq, hagree c]
  · rw [Cert.ReferenceIdeal.Read.val_main_v18_eq, Cert.ReferenceIdeal.Hand.attn_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
